-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S2x65536 : Shape := ⟨2, ![2, 65536]⟩
abbrev S4096 : Shape := ⟨1, ![4096]⟩
abbrev S10 : Shape := ⟨1, ![10]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x256 .f32) (main_arg1 : FVec F S8192x8192 .f32) (main_arg2 : IVec S2x65536 32) (main_arg3 : IVec S4096 32) (main_arg4 : IVec S10 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S2x65536 : Shape := ⟨2, ![2, 65536]⟩
abbrev S4096 : Shape := ⟨1, ![4096]⟩
abbrev S10 : Shape := ⟨1, ![10]⟩
abbrev S256x8192 : Shape := ⟨2, ![256, 8192]⟩
abbrev S256x256 : Shape := ⟨2, ![256, 256]⟩
abbrev S256 : Shape := ⟨1, ![256]⟩
abbrev S256x1 : Shape := ⟨2, ![256, 1]⟩
abbrev S_ : Shape := ⟨0, ![]⟩
abbrev S10x1 : Shape := ⟨2, ![10, 1]⟩
abbrev S10x256 : Shape := ⟨2, ![10, 256]⟩
abbrev S8192 : Shape := ⟨1, ![8192]⟩
abbrev S8192x1 : Shape := ⟨2, ![8192, 1]⟩
abbrev S8192x10 : Shape := ⟨2, ![8192, 10]⟩

abbrev nBuf : Space → Nat
  | .hbm => 68
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S2x65536, .i32⟩
  | .hbm, ⟨3, _⟩ => ⟨S4096, .i32⟩
  | .hbm, ⟨4, _⟩ => ⟨S10, .i32⟩
  | .hbm, ⟨5, _⟩ => ⟨S8192x256, .f32⟩
  | .hbm, ⟨6, _⟩ => ⟨S_, .i32⟩
  | .hbm, ⟨7, _⟩ => ⟨S10, .i32⟩
  | .hbm, ⟨8, _⟩ => ⟨S10, .i1⟩
  | .hbm, ⟨9, _⟩ => ⟨S_, .i32⟩
  | .hbm, ⟨10, _⟩ => ⟨S10, .i32⟩
  | .hbm, ⟨11, _⟩ => ⟨S10, .i32⟩
  | .hbm, ⟨12, _⟩ => ⟨S10, .i32⟩
  | .hbm, ⟨13, _⟩ => ⟨S10x1, .i32⟩
  | .hbm, ⟨14, _⟩ => ⟨S10x256, .f32⟩
  | .hbm, ⟨15, _⟩ => ⟨S8192x256, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x256, .f32⟩
  | .hbm, ⟨34, _⟩ => ⟨S8192x256, .f32⟩
  | .hbm, ⟨35, _⟩ => ⟨S10x256, .f32⟩
  | .hbm, ⟨36, _⟩ => ⟨S_, .f32⟩
  | .hbm, ⟨37, _⟩ => ⟨S10, .f32⟩
  | .hbm, ⟨38, _⟩ => ⟨S10x1, .f32⟩
  | .hbm, ⟨39, _⟩ => ⟨S10x1, .f32⟩
  | .hbm, ⟨40, _⟩ => ⟨S_, .f32⟩
  | .hbm, ⟨41, _⟩ => ⟨S10x1, .f32⟩
  | .hbm, ⟨42, _⟩ => ⟨S10x1, .f32⟩
  | .hbm, ⟨43, _⟩ => ⟨S10x256, .f32⟩
  | .hbm, ⟨44, _⟩ => ⟨S10x256, .f32⟩
  | .hbm, ⟨45, _⟩ => ⟨S8192x256, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x10, .f32⟩
  | .hbm, ⟨52, _⟩ => ⟨S_, .f32⟩
  | .hbm, ⟨53, _⟩ => ⟨S8192x10, .f32⟩
  | .hbm, ⟨54, _⟩ => ⟨S8192x10, .f32⟩
  | .hbm, ⟨55, _⟩ => ⟨S8192x10, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S8192x256, .f32⟩
  | .local _ .vmem, ⟨3, _⟩ => ⟨S256x256, .f32⟩
  | .local _ .vmem, ⟨4, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S8192x256_S8192x256_0_0 : ∀ a, (![0, 0] : Fin 2 → Nat) a + S8192x256.size a ≤ S8192x256.size a
  h_S8192x256 : 0 < S8192x256.numel
  broadcasts_S256x1_S256x256 : S256x1.Broadcasts S256x256
  inb_S256x256_S256x256_0_0 : ∀ a, (![0, 0] : Fin 2 → Nat) a + S256x256.size a ≤ S256x256.size a
  h_S256x256 : 0 < S256x256.numel
  bcast_S_S10 : S_.BroadcastsInDim S10 (![] : Fin 0 → Fin S10.rank)
  bcast_S10_S10x1_0 : S10.BroadcastsInDim S10x1 (![0] : Fin 1 → Fin S10x1.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S10x256_S10_d1 : S10x256.ReducesTo [1] S10
  bcast_S_S10x1 : S_.BroadcastsInDim S10x1 (![] : Fin 0 → Fin S10x1.rank)
  bcast_S10x1_S10x256_0_1 : S10x1.BroadcastsInDim S10x256 (![0, 1] : Fin 2 → Fin S10x256.rank)
  bcast_S_S8192 : S_.BroadcastsInDim S8192 (![] : Fin 0 → Fin S8192.rank)
  bcast_S_S8192x10 : S_.BroadcastsInDim S8192x10 (![] : Fin 0 → Fin S8192x10.rank)
  reducesTo_S8192x10_S8192_d1 : S8192x10.ReducesTo [1] S8192
  reducesTo_S8192_S_d0 : S8192.ReducesTo [0] S_
  dot_S256x8192_S8192x256_S256x256_1_0_0_1_n_n_wf : DotDims.WF S256x8192 S8192x256 S256x256 [1] [0] [0] [1] [] []
  gather_S8192x256_S10x1_S10x256_1_0_n_n_0_1_1256_wf : GatherDims.WF S8192x256 S10x1 S10x256 [1] [0] [] [0] [] 1 ![1, 256]
  dot_S8192x256_S10x256_S8192x10_1_1_0_0_n_n_wf : DotDims.WF S8192x256 S10x256 S8192x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x256.size a
  hwx0_2 : ∀ i : grid0.Coords, EltTy.bits .f32 = 32 ∨ (Rect.block (s := S8192x256) S256x256.size (cc0_transform_2 i) (hinb0_2 i)).WholeWords (EltTy.packing .f32)

variable [Facts₀]

def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def gather_S8192x256_S10x1_S10x256_1_0_n_n_0_1_1256 : GatherDims S8192x256 S10x1 S10x256 where
  offsetDims := [1]
  collapsedSliceDims := [0]
  operandBatchingDims := []
  startIndicesBatchingDims := []
  startIndexMap := [0]
  indexVectorDim := 1
  sliceSizes := ![1, 256]
  wf := gather_S8192x256_S10x1_S10x256_1_0_n_n_0_1_1256_wf
def dot_S8192x256_S10x256_S8192x10_1_1_0_0_n_n : DotDims S8192x256 S10x256 S8192x10 where
  lhsContracting := [1]
  rhsContracting := [1]
  lhsNonContracting := [0]
  rhsNonContracting := [0]
  lhsBatch := []
  rhsBatch := []
  wf := dot_S8192x256_S10x256_S8192x10_1_1_0_0_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S2x65536 : Shape := ⟨2, ![2, 65536]⟩
abbrev S4096 : Shape := ⟨1, ![4096]⟩
abbrev S10 : Shape := ⟨1, ![10]⟩
abbrev S_ : Shape := ⟨0, ![]⟩
abbrev S8192 : Shape := ⟨1, ![8192]⟩
abbrev S8192x1 : Shape := ⟨2, ![8192, 1]⟩
abbrev S10x1 : Shape := ⟨2, ![10, 1]⟩
abbrev S10x256 : Shape := ⟨2, ![10, 256]⟩
abbrev S8192x10 : Shape := ⟨2, ![8192, 10]⟩

abbrev nBuf : Space → Nat
  | .hbm => 118
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S2x65536, .i32⟩
  | .hbm, ⟨3, _⟩ => ⟨S4096, .i32⟩
  | .hbm, ⟨4, _⟩ => ⟨S10, .i32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x8192, .f32⟩
  | .hbm, ⟨54, _⟩ => ⟨S8192x8192, .f32⟩
  | .hbm, ⟨55, _⟩ => ⟨S8192x256, .f32⟩
  | .hbm, ⟨56, _⟩ => ⟨S_, .i32⟩
  | .hbm, ⟨57, _⟩ => ⟨S10, .i32⟩
  | .hbm, ⟨58, _⟩ => ⟨S10, .i1⟩
  | .hbm, ⟨59, _⟩ => ⟨S_, .i32⟩
  | .hbm, ⟨60, _⟩ => ⟨S10, .i32⟩
  | .hbm, ⟨61, _⟩ => ⟨S10, .i32⟩
  | .hbm, ⟨62, _⟩ => ⟨S10, .i32⟩
  | .hbm, ⟨63, _⟩ => ⟨S10x1, .i32⟩
  | .hbm, ⟨64, _⟩ => ⟨S10x256, .f32⟩
  | .hbm, ⟨65, _⟩ => ⟨S8192x256, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x256, .f32⟩
  | .hbm, ⟨84, _⟩ => ⟨S8192x256, .f32⟩
  | .hbm, ⟨85, _⟩ => ⟨S10x256, .f32⟩
  | .hbm, ⟨86, _⟩ => ⟨S_, .f32⟩
  | .hbm, ⟨87, _⟩ => ⟨S10, .f32⟩
  | .hbm, ⟨88, _⟩ => ⟨S10x1, .f32⟩
  | .hbm, ⟨89, _⟩ => ⟨S10x1, .f32⟩
  | .hbm, ⟨90, _⟩ => ⟨S_, .f32⟩
  | .hbm, ⟨91, _⟩ => ⟨S10x1, .f32⟩
  | .hbm, ⟨92, _⟩ => ⟨S10x1, .f32⟩
  | .hbm, ⟨93, _⟩ => ⟨S10x256, .f32⟩
  | .hbm, ⟨94, _⟩ => ⟨S10x256, .f32⟩
  | .hbm, ⟨95, _⟩ => ⟨S8192x256, .f32⟩
  | .hbm, ⟨96, _⟩ => ⟨S_, .f32⟩
  | .hbm, ⟨97, _⟩ => ⟨S8192, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S8192x10, .f32⟩
  | .hbm, ⟨102, _⟩ => ⟨S_, .f32⟩
  | .hbm, ⟨103, _⟩ => ⟨S8192x10, .f32⟩
  | .hbm, ⟨104, _⟩ => ⟨S8192x10, .f32⟩
  | .hbm, ⟨105, _⟩ => ⟨S8192x10, .f32⟩
  | .hbm, ⟨106, _⟩ => ⟨S8192, .f32⟩
  | .hbm, ⟨107, _⟩ => ⟨S8192, .f32⟩
  | .hbm, ⟨108, _⟩ => ⟨S_, .f32⟩
  | .hbm, ⟨109, _⟩ => ⟨S8192, .f32⟩
  | .hbm, ⟨110, _⟩ => ⟨S8192, .f32⟩
  | .hbm, ⟨111, _⟩ => ⟨S8192, .f32⟩
  | .hbm, ⟨112, _⟩ => ⟨S8192, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_cst_17 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_19 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_20 : Ref sig .tc := ⟨.hbm, 113, rfl⟩
abbrev main_v86 : Ref sig .tc := ⟨.hbm, 114, rfl⟩
abbrev main_cst_21 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S10 : S_.BroadcastsInDim S10 (![] : Fin 0 → Fin S10.rank)
  bcast_S10_S10x1_0 : S10.BroadcastsInDim S10x1 (![0] : Fin 1 → Fin S10x1.rank)
  reducesTo_S8192x256_S8192_d1 : S8192x256.ReducesTo [1] S8192
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S10x256_S10_d1 : S10x256.ReducesTo [1] S10
  bcast_S_S10x1 : S_.BroadcastsInDim S10x1 (![] : Fin 0 → Fin S10x1.rank)
  bcast_S10x1_S10x256_0_1 : S10x1.BroadcastsInDim S10x256 (![0, 1] : Fin 2 → Fin S10x256.rank)
  bcast_S_S8192 : S_.BroadcastsInDim S8192 (![] : Fin 0 → Fin S8192.rank)
  bcast_S_S8192x10 : S_.BroadcastsInDim S8192x10 (![] : Fin 0 → Fin S8192x10.rank)
  reducesTo_S8192x10_S8192_d1 : S8192x10.ReducesTo [1] S8192
  reducesTo_S8192_S_d0 : S8192.ReducesTo [0] S_
  dot_S8192x8192_S8192x256_S8192x256_1_0_0_1_n_n_wf : DotDims.WF S8192x8192 S8192x256 S8192x256 [1] [0] [0] [1] [] []
  gather_S8192x256_S10x1_S10x256_1_0_n_n_0_1_1256_wf : GatherDims.WF S8192x256 S10x1 S10x256 [1] [0] [] [0] [] 1 ![1, 256]
  dot_S8192x256_S10x256_S8192x10_1_1_0_0_n_n_wf : DotDims.WF S8192x256 S10x256 S8192x10 [1] [1] [0] [0] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def gather_S8192x256_S10x1_S10x256_1_0_n_n_0_1_1256 : GatherDims S8192x256 S10x1 S10x256 where
  offsetDims := [1]
  collapsedSliceDims := [0]
  operandBatchingDims := []
  startIndicesBatchingDims := []
  startIndexMap := [0]
  indexVectorDim := 1
  sliceSizes := ![1, 256]
  wf := gather_S8192x256_S10x1_S10x256_1_0_n_n_0_1_1256_wf
def dot_S8192x256_S10x256_S8192x10_1_1_0_0_n_n : DotDims S8192x256 S10x256 S8192x10 where
  lhsContracting := [1]
  rhsContracting := [1]
  lhsNonContracting := [0]
  rhsNonContracting := [0]
  lhsBatch := []
  rhsBatch := []
  wf := dot_S8192x256_S10x256_S8192x10_1_1_0_0_n_n_wf

class Facts : Prop extends Facts₀ where

variable [Facts]
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.LibRowScalar.lean ====
/-
  Three small facts at the ideal instance, for any extents.

  * A vector of length a made a column (a × 1) and then repeated along the rows of an a × b array reads, at (r, k), the
    vector's entry r — the way a per-row scalar (a degree, a norm) is spread over a row on the host.
  * The 32-bit word 0x3F800000 is the number one.
  * The logistic function of a vector, read at an index, is the logistic function of the entry, which on the extended
    reals is 1 / (1 + exp (−x)) by definition.
-/
import Idealize.ShloMosaic.Lib.ValueIdx
import Idealize.ShloMosaic.Lib.Pipeline.Value
import Idealize.ShloMosaic.PureOps.Ideal.Laws

noncomputable section

namespace Cert.LibRowScalar

open Idealize.ShloMosaic Idealize.ShloMosaic.ValueIdx

/-- The word of the number one. -/
theorem one_word : Ideal.ofBits .f32 0x3F800000#32 = 1 := by
  simp [Ideal.ofBits, Ideal.ieee, -EReal.coe_mul]; norm_num

/-- A vector made a column and then repeated along the rows reads, at (r, k), its entry r. -/
theorem col_apply {a b : Nat} {α : Type} (v : (⟨1, ![a]⟩ : Shape).Idx → α)
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (k : Fin b) :
    broadcastInDim ⟨2, ![a, b]⟩ (![0, 1] : Fin 2 → Fin 2) g2 (broadcastInDim ⟨2, ![a, 1]⟩ (![0] : Fin 1 → Fin 2) g1 v) (ix2 r k)
      = v (ix1 r) := by
  rw [broadcastInDim_apply (![0, 1] : Fin 2 → Fin 2) g2 _ (ix2 r k) (ix2 r (0 : Fin 1)) (fun ax => by
    match ax with
    | ⟨0, _⟩ =>
      show r.val = if a = 1 then 0 else r.val
      split
      · have := r.isLt; omega
      · rfl
    | ⟨1, _⟩ => rfl)]
  exact broadcastInDim_apply (![0] : Fin 1 → Fin 2) g1 v (ix2 r (0 : Fin 1)) (ix1 r) (fun ax => by
    match ax with
    | ⟨0, _⟩ =>
      show r.val = if a = 1 then 0 else r.val
      split
      · have := r.isLt; omega
      · rfl)

/-- The logistic function of a vector, read at an index. -/
theorem logistic_apply {s : Shape} {φ : FTy} (x : FVec Ideal s φ) (i : s.Idx) : logistic x i = Ideal.logistic (x i) := rfl

/-- The logistic function on the extended reals is 1 / (1 + exp (−x)). -/
theorem logistic_eq (x : EReal) : Ideal.logistic x = Ideal.div 1 (1 + Ideal.exp (-x)) := rfl

end Cert.LibRowScalar

end
-- ==== Proof.KernelPayload.lean ====
/-
  The kernel body's one stored value, read at an entry, on the extended reals.

  The body loads a 256 × 8192 block `x0` of the diffusion matrix and the whole 8192 × 256 feature array `x1`, sums each
  row of the block, takes the reciprocal of the row sums, multiplies the block by the features and scales row `p` of
  the product by the reciprocal of row `p`'s sum.  So the stored entry `(p, q)` is
  `(∑ k, x0 (p, k) · x1 (k, q)) · (1 / ∑ k, x0 (p, k))`, with the division of the extended reals.
-/
import proofs.«170916_j27504970563864_2_alg».proof.Proof.Gen.KernelIdeal.Skeleton
import proofs.«170916_j27504970563864_2_alg».proof.Proof.LibMatmulNN
import proofs.«170916_j27504970563864_2_alg».proof.Proof.LibColumnForms
import proofs.«170916_j27504970563864_2_alg».proof.Proof.LibRowScalar

noncomputable section

open scoped BigOperators

namespace Cert.KernelIdeal.Payload

open Cert.KernelIdeal Cert.KernelIdeal.Gen Idealize.ShloMosaic Idealize.ShloMosaic.ValueIdx

/-- The product of the block and the features at `(p, q)`: the sum over the 8192 columns of the block. -/
theorem product_apply (x0 : FVec Ideal S256x8192 .f32) (x1 : FVec Ideal S8192x256 .f32) (p q : Fin 256) :
    matmul (φ₁ := .f32) (φ₂ := .f32) dot_S256x8192_S8192x256_S256x256_1_0_0_1_n_n (some .fp32) x0 x1 (constant (F := Ideal) S256x256 .f32 0x00000000#32) (ix2 p q)
      = ∑ k : Fin 8192, x0 (ix2 p k) * x1 (ix2 k q) :=
  Cert.LibMatmulNN.matmul_zero_apply' dot_S256x8192_S8192x256_S256x256_1_0_0_1_n_n rfl rfl rfl rfl rfl rfl (some .fp32) x0 x1 p q

/-- The reciprocal of the row sums, as a column, at row `p`. -/
theorem reciprocal_apply (x0 : FVec Ideal S256x8192 .f32) (p : Fin 256) :
    divf (broadcast S256x1 (Scalar.ofBits (F := Ideal) .f32 0x3F800000#32) : FVec Ideal S256x1 .f32)
        (shapeCast S256x1 (multiReduction (F := Ideal) .add [1] S256 x0 0x00000000#32 reduces_S256x8192_S256 (.inl rfl) rfl) shapeCasts_S256_S256x1)
        (ix2 p (0 : Fin 1))
      = Ideal.div 1 (∑ k : Fin 8192, x0 (ix2 p k)) := by
  show Ideal.div (Ideal.ofBits .f32 0x3F800000#32) _ = _
  rw [Cert.LibRowScalar.one_word]
  refine congrArg (Ideal.div 1) ?_
  exact (Cert.Lib.ColumnForms.shapeCast_a_a1_apply _ shapeCasts_S256_S256x1 p (0 : Fin 1)).trans
    (Cert.Lib.ColumnForms.rowSum_apply x0 reduces_S256x8192_S256 (.inl rfl) rfl p)

/-- The stored value at `(p, q)`. -/
theorem payload_apply (x0 : Vec Ideal S256x8192 .f32) (x1 : Vec Ideal S8192x256 .f32) (p q : Fin 256) :
    k0_pay1 (F := Ideal) x0 x1 (ix2 p q)
      = (∑ k : Fin 8192, x0 (ix2 p k) * x1 (ix2 k q)) * Ideal.div 1 (∑ k : Fin 8192, x0 (ix2 p k)) := by
  unfold k0_pay1
  refine (congrArg₂ (fun a b : EReal => a * b) (product_apply x0 x1 p q) ?_)
  exact (Cert.Lib.ColumnForms.broadcastTo_a1_ab_apply _ broadcasts_S256x1_S256x256 p q).trans (reciprocal_apply x0 p)

end Cert.KernelIdeal.Payload

end
-- ==== Proof.KernelArray.lean ====
/-
  The array the kernel's region leaves, as one function of the argument arrays, on the extended reals.

  The grid has 32 points; point `t` reads rows `256 t … 256 t + 255` of the 8192 × 8192 diffusion matrix (all of its
  columns) and the whole feature array, and writes rows `256 t … 256 t + 255` of the 8192 × 256 result.  Entry `(r, q)`
  of the result is therefore `(∑ k, d (r, k) · z (k, q)) · (1 / ∑ k, d (r, k))`: the product row scaled by the reciprocal
  of the matrix row's sum.  The 32 row blocks cover the result, so the whole array is that function.
-/
import proofs.«170916_j27504970563864_2_alg».proof.Proof.Gen.KernelIdeal.Frame
import proofs.«170916_j27504970563864_2_alg».proof.Proof.KernelPayload
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Diffused

open Cert.KernelIdeal Cert.KernelIdeal.Gen

variable (m : (ℓ : Loc nD τ sig) → Buf (Elt Ideal) ℓ) (ρ : Dev nD → PrngReg)

/-- The scaled product: entry `(r, q)` is row `r` of `d` times column `q` of `z`, times the reciprocal of the sum of row `r` of `d`. -/
def diffused (d : S8192x8192.Idx → EReal) (z : S8192x256.Idx → EReal) : S8192x256.Idx → EReal :=
  fun i => (∑ k : Fin 8192, d (ix2 (i 0) k) * z (ix2 k (i 1))) * Ideal.div 1 (∑ k : Fin 8192, d (ix2 (i 0) k))

theorem zero_offsets : (![0, 0] : Fin 2 → Nat) = fun _ => 0 := funext fun a => by fin_cases a <;> rfl

/-- The printed index maps over the grid: the matrix window and the result window move together along the rows, one
    block per point; every other block coordinate is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the matrix block at point `t` is entry `(256 t + p, k)` of the matrix. -/
theorem matrix_block_apply (c : Dev nD) (t : Fin cfg0.N) (p : Fin 256) (k : Fin 8192) (i : S8192x8192.Idx)
    (h0 : (i 0).val = 256 * t.val + p.val) (h1 : (i 1).val = k.val) :
    (iblk m c 0 t : Vec Ideal S256x8192 .f32) (ix2 p k) = (V m c main_arg1 : S8192x8192.Idx → EReal) i := by
  obtain ⟨e0, e1, -, -, -, -⟩ := index_facts t
  unfold iblk
  rw [View.read_apply]
  show V m c main_arg1 _ = V m c main_arg1 _
  congr 1
  funext a
  apply Fin.ext
  match a with
  | ⟨0, _⟩ => show win0_0.index t 0 * 256 + 1 * p.val = (i 0).val; rw [e0, h0]; omega
  | ⟨1, _⟩ => show win0_0.index t 1 * 8192 + 1 * k.val = (i 1).val; rw [e1, h1]; omega

/-- The feature block at every point is the whole feature array. -/
theorem feature_block_apply (c : Dev nD) (t : Fin cfg0.N) (k : Fin 8192) (q : Fin 256) (i : S8192x256.Idx)
    (h0 : (i 0).val = k.val) (h1 : (i 1).val = q.val) :
    (iblk m c 1 t : Vec Ideal S8192x256 .f32) (ix2 k q) = (V m c main_arg0 : S8192x256.Idx → EReal) i := by
  obtain ⟨-, -, e2, e3, -, -⟩ := index_facts t
  unfold iblk
  rw [View.read_apply]
  show V m c main_arg0 _ = V m c main_arg0 _
  congr 1
  funext a
  apply Fin.ext
  match a with
  | ⟨0, _⟩ => show win0_1.index t 0 * 8192 + 1 * k.val = (i 0).val; rw [e2, h0]; omega
  | ⟨1, _⟩ => show win0_1.index t 1 * 256 + 1 * q.val = (i 1).val; rw [e3, h1]; omega

/-- What point `t` writes back is block `t` of the scaled product of the argument arrays. -/
theorem flushed_eq (c : Dev nD) (t : Fin cfg0.N) :
    (dats m 0 c).flushed 2 t
      = ((cfg0.win 2).blk t).view.read (Elt Ideal) (diffused (V m c main_arg1) (V m c main_arg0)) := by
  show (cfg0.win 2).cut (grid0.coords t) ((dats m 0 c).after 2 t) = _
  rw [after0_2]
  unfold out0_2
  rw [View.canon_unit_zero zero_offsets]
  simp only [View.ld_unit_zero (S := S256x8192) zero_offsets, View.ld_unit_zero (S := S8192x256) zero_offsets]
  obtain ⟨-, -, -, -, e4, e5⟩ := index_facts t
  funext j
  obtain ⟨p, q, rfl⟩ : ∃ (p : Fin 256) (q : Fin 256), j = ix2 p q := ⟨j 0, j 1, eq_ix2 j⟩
  show k0_pay1 (F := Ideal) (iblk m c 0 t) (iblk m c 1 t) (ix2 p q)
    = diffused (V m c main_arg1) (V m c main_arg0) (((cfg0.win 2).blk t).view.emb (ix2 p q))
  refine (Cert.KernelIdeal.Payload.payload_apply (iblk m c 0 t) (iblk m c 1 t) p q).trans ?_
  have r0 : ((((cfg0.win 2).blk t).view.emb (ix2 p q)) 0).val = 256 * t.val + p.val := by
    show win0_2.index t 0 * 256 + 1 * p.val = _
    rw [e4]; omega
  have r1 : ((((cfg0.win 2).blk t).view.emb (ix2 p q)) 1).val = q.val := by
    show win0_2.index t 1 * 256 + 1 * q.val = _
    rw [e5]; omega
  have hd : ∀ k : Fin 8192, (iblk m c 0 t : Vec Ideal S256x8192 .f32) (ix2 p k)
      = (V m c main_arg1 : S8192x8192.Idx → EReal) (ix2 ((((cfg0.win 2).blk t).view.emb (ix2 p q)) 0) k) :=
    fun k => matrix_block_apply m c t p k _ r0 rfl
  have hf : ∀ k : Fin 8192, (iblk m c 1 t : Vec Ideal S8192x256 .f32) (ix2 k q)
      = (V m c main_arg0 : S8192x256.Idx → EReal) (ix2 k ((((cfg0.win 2).blk t).view.emb (ix2 p q)) 1)) :=
    fun k => feature_block_apply m c t k q _ rfl r1
  unfold diffused
  exact congrArg₂ (fun a b : EReal => a * Ideal.div 1 b)
    (Finset.sum_congr rfl fun k _ => congrArg₂ (fun a b : EReal => a * b) (hd k) (hf k))
    (Finset.sum_congr rfl fun k _ => hd k)

/-- An index of the result array is in point `t`'s block iff each coordinate is in the block's range on its axis. -/
theorem mem_block (t : Fin cfg0.N) (i : S8192x256.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v0).slice (win0_2.rect t)).set ↔ _
  rw [View.set_slice_whole, Rect.mem_set_unit]
  exact Iff.rfl

/-- Row `r` of the result is in the block of point `r / 256`. -/
theorem covered (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 32 := N_0
  have ht : (i 0).val / 256 < cfg0.N := by rw [hN]; omega
  obtain ⟨-, -, -, -, e4, e5⟩ := index_facts ⟨(i 0).val / 256, ht⟩
  refine ⟨⟨(i 0).val / 256, ht⟩, flush0_2 _, ?_⟩
  rw [mem_block]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e4]
    show (i 0).val / 256 * 256 ≤ (i 0).val ∧ (i 0).val < (i 0).val / 256 * 256 + 256
    omega
  | ⟨1, _⟩ =>
    show win0_2.index ⟨(i 0).val / 256, ht⟩ (1 : Fin 2) * 256 ≤ (i 1).val
      ∧ (i 1).val < win0_2.index ⟨(i 0).val / 256, ht⟩ (1 : Fin 2) * 256 + 256
    rw [e5]
    omega

/-- The result array after the region: the scaled product of the argument arrays. -/
theorem final (c : Dev nD) :
    (dats m 0 c).arrAt 2 cfg0.N
      = diffused (m ((c : Thread nD τ).loc main_arg1)) (m ((c : Thread nD τ).loc main_arg0)) :=
  (dats m 0 c).arrAt_eq_of_cover 2 (diffused (V m c main_arg1) (V m c main_arg0)) (fun t _ => flushed_eq m c t) covered

end Cert.KernelIdeal.Diffused

end
-- ==== Proof.Loss.lean ====
/-
  The contrastive loss as a function of the L2-normalized diffused features.

  Both programs end the same way.  From the features `z`, ten row indices `idx` and the diffused features, they take the
  L2-normalized rows `a` of `z`, `p` of the diffused features and `n` of the ten gathered rows of `z`, the similarities
  `pos = (∑ a · p) / 0.2` and `neg = exp (a nᵀ / 0.2)`, and return `-(∑ log (exp pos / (exp pos + ∑ neg))) / 8192`.
  The diffused features enter ONLY through their L2-normalized rows: the loss is `loss z idx (normalized pos)`.
  This module names those functions and restates the reference's run with its result in that form.
-/
import proofs.«170916_j27504970563864_2_alg».proof.Proof.Gen.ReferenceIdeal.Run
import Idealize.ShloMosaic.PureOps.Ideal

noncomputable section

namespace Cert.ReferenceIdeal.Loss

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The rows of the features divided by their Euclidean norms (clamped below at 1e-12). -/
def anchors (z : (⟨S8192x256, .f32⟩ : BufTy).Contents (Elt F)) : (⟨S8192x256, .f32⟩ : BufTy).Contents (Elt F) :=
  Host.divf z (broadcastInDim S8192x256 ![0, 1] bcast_S8192x1_S8192x256_0_1 (maximumf (Host.sqrt (broadcastInDim S8192x1 ![0] bcast_S8192_S8192x1_0 (Host.reduceAdd (mulf z z) (constant S_ .f32 0x00000000#32) reducesTo_S8192x256_S8192_d1 h_S_))) (broadcastInDim S8192x1 ![] bcast_S_S8192x1 (constant S_ .f32 0x2B8CBCCC#32))))

/-- The ten rows of the features picked by the (wrapped) indices. -/
def negatives (z : (⟨S8192x256, .f32⟩ : BufTy).Contents (Elt F)) (idx : (⟨S10, .i32⟩ : BufTy).Contents (Elt F)) :
    (⟨S10x256, .f32⟩ : BufTy).Contents (Elt F) :=
  Host.gather gather_S8192x256_S10x1_S10x256_1_0_n_n_0_1_1256 z (broadcastInDim S10x1 ![0] bcast_S10_S10x1_0 (select (cmpi .slt idx (broadcastInDim S10 ![] bcast_S_S10 (constantI S_ 32 0#32))) (addi idx (broadcastInDim S10 ![] bcast_S_S10 (constantI S_ 32 8192#32))) idx))

/-- The rows of an 8192 × 256 array divided by their Euclidean norms (clamped below at 1e-12). -/
def normalized (pos : (⟨S8192x256, .f32⟩ : BufTy).Contents (Elt F)) : (⟨S8192x256, .f32⟩ : BufTy).Contents (Elt F) :=
  Host.divf pos (broadcastInDim S8192x256 ![0, 1] bcast_S8192x1_S8192x256_0_1 (maximumf (Host.sqrt (broadcastInDim S8192x1 ![0] bcast_S8192_S8192x1_0 (Host.reduceAdd (mulf pos pos) (constant S_ .f32 0x00000000#32) reducesTo_S8192x256_S8192_d1 h_S_))) (broadcastInDim S8192x1 ![] bcast_S_S8192x1 (constant S_ .f32 0x2B8CBCCC#32))))

/-- The positive similarities: the row-wise inner products of the normalized features and `p`, over the temperature. -/
def posSim (z p : (⟨S8192x256, .f32⟩ : BufTy).Contents (Elt F)) : (⟨S8192, .f32⟩ : BufTy).Contents (Elt F) :=
  Host.divf (Host.reduceAdd (mulf (anchors z) p) (constant S_ .f32 0x00000000#32) reducesTo_S8192x256_S8192_d1 h_S_) (broadcastInDim S8192 ![] bcast_S_S8192 (constant S_ .f32 0x3E4CCCCD#32))

/-- The loss from the features, the indices and the normalized diffused features `p`. -/
def loss (z : (⟨S8192x256, .f32⟩ : BufTy).Contents (Elt F)) (idx : (⟨S10, .i32⟩ : BufTy).Contents (Elt F))
    (p : (⟨S8192x256, .f32⟩ : BufTy).Contents (Elt F)) : (⟨S_, .f32⟩ : BufTy).Contents (Elt F) :=
  Host.negf (Host.divf (Host.reduceAdd (Host.log (Host.divf (Host.exp (posSim z p)) (addf (Host.exp (posSim z p)) (Host.reduceAdd (Host.exp (Host.divf (Host.dotGeneral dot_S8192x256_S10x256_S8192x10_1_1_0_0_n_n none (anchors z) (Host.divf (negatives z idx) (broadcastInDim S10x256 ![0, 1] bcast_S10x1_S10x256_0_1 (maximumf (Host.sqrt (broadcastInDim S10x1 ![0] bcast_S10_S10x1_0 (Host.reduceAdd (mulf (negatives z idx) (negatives z idx)) (constant S_ .f32 0x00000000#32) reducesTo_S10x256_S10_d1 h_S_))) (broadcastInDim S10x1 ![] bcast_S_S10x1 (constant S_ .f32 0x2B8CBCCC#32)))))) (broadcastInDim S8192x10 ![] bcast_S_S8192x10 (constant S_ .f32 0x3E4CCCCD#32)))) (constant S_ .f32 0x00000000#32) reducesTo_S8192x10_S8192_d1 h_S_)))) (constant S_ .f32 0x00000000#32) reducesTo_S8192_S_d0 h_S_) (constant S_ .f32 0x46000000#32))

/-- The reference's run: its result is the loss of the normalized rows of its diffused features (the matrix
    normalized ten times, times the features), and its arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88)
        = loss (F := Ideal) (m ((c.tc : Thread nD τ).loc main_arg0)) (m ((c.tc : Thread nD τ).loc main_arg4))
            (normalized (res_main_v40 (F := Ideal) (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      unfold loss posSim anchors negatives normalized res_main_v75 res_main_v55 res_main_v47
      rfl), (h c).2⟩)
    (Cert.ReferenceIdeal.Value.run (F := Ideal) m ρ)

end Cert.ReferenceIdeal.Loss

end
-- ==== Proof.KernelLoss.lean ====
/-
  The kernel's run, read: its result is the loss of the L2-normalized rows of the scaled product.

  After the region the host computes the loss from the features, the indices and the array the region wrote.  The
  host lines are those of the reference's tail, so their result is the same function `loss z idx (normalized ·)` of that
  array, which the region leaves at the scaled product `diffused` of the diffusion matrix and the features.
-/
import proofs.«170916_j27504970563864_2_alg».proof.Proof.Gen.KernelIdeal.Frame
import proofs.«170916_j27504970563864_2_alg».proof.Proof.KernelArray
import proofs.«170916_j27504970563864_2_alg».proof.Proof.Loss
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.LossRun

open Cert.KernelIdeal Cert.KernelIdeal.Gen Cert.KernelIdeal.Diffused
open Cert.ReferenceIdeal.Loss (loss normalized)

variable (m : (ℓ : Loc nD τ sig) → Buf (Elt Ideal) ℓ) (ρ : Dev nD → PrngReg)

set_option maxRecDepth 8192 in
set_option maxHeartbeats 4000000 in
/-- The host lines after the region, from ANY buffer contents `W`: their result is the loss of the features, the
    indices and the normalized rows of the region's array as `W` holds them. -/
theorem tail_result (W : Valuation τ sig (Elt Ideal)) :
    StableHlo.after (hostOps1 (F := Ideal)) W (Proc.devRef .tc main_v48)
      = loss (F := Ideal) (W (Proc.devRef .tc main_arg0)) (W (Proc.devRef .tc main_arg4)) (normalized (W (Proc.devRef .tc main_v0))) := by
  after_results_simp
  unfold Cert.ReferenceIdeal.Loss.loss Cert.ReferenceIdeal.Loss.posSim Cert.ReferenceIdeal.Loss.anchors
    Cert.ReferenceIdeal.Loss.negatives Cert.ReferenceIdeal.Loss.normalized
  rfl

/-- The buffer contents the region leaves: its arrays as the write-backs made them, every other buffer as at entry. -/
abbrev exitContents (c : Dev nD) : Valuation τ sig (Elt Ideal) :=
  Pipeline.withArrays (cfgs 0).spec c (V0 m c) fun w => (dats m 0 c).arrAt w (cfgs 0).N

/-- The result buffer after the host lines that follow the region. -/
theorem result_eq (c : Dev nD) :
    Pipeline.afterTail₀ cfgs (dats m) 0 (V0 m) [hostOps1] c main_v48
      = loss (F := Ideal) (m ((c : Thread nD τ).loc main_arg0)) (m ((c : Thread nD τ).loc main_arg4))
          (normalized (diffused (m ((c : Thread nD τ).loc main_arg1)) (m ((c : Thread nD τ).loc main_arg0)))) := by
  unfold Pipeline.afterTail₀
  show StableHlo.after (hostOps1 (F := Ideal)) (exitContents m c) (Proc.devRef .tc main_v48) = _
  rw [tail_result]
  have h0 : exitContents m c (Proc.devRef .tc main_arg0) = m ((c : Thread nD τ).loc main_arg0) :=
    (Pipeline.withArrays_arr spec0 launch0.win.arr_inj c _ _ 1).trans
      (((dats m 0 c).arrAt_in 1 rfl _).trans ((A_eq m c 1).trans (V_main_arg0 m c)))
  have h4 : exitContents m c (Proc.devRef .tc main_arg4) = m ((c : Thread nD τ).loc main_arg4) :=
    (Pipeline.withArrays_of_ne _ c (V0 m c) _ main_arg4
      (by exact (by decide : ∀ w, Pipeline.arrRef spec0 w ≠ main_arg4))).trans (V_main_arg4 m c)
  have hv : exitContents m c (Proc.devRef .tc main_v0)
      = diffused (m ((c : Thread nD τ).loc main_arg1)) (m ((c : Thread nD τ).loc main_arg0)) :=
    (Pipeline.withArrays_arr spec0 launch0.win.arr_inj c _ _ 2).trans (final m c)
  rw [h0, h4, hv]

/-- The kernel's run: the result is that loss, and the argument arrays end as launched (each read off the frame
    run's post: a staged input by the write-back algebra, the others untouched by the host lines). -/
theorem run : θ_run defs (onTc (τ := τ) (main (F := Ideal))) ⟨m, fun _ => 0, ρ⟩ fun r => ∀ c : Dev nD,
      r.2.mem ((c.tc : Thread nD τ).loc main_v48)
        = loss (F := Ideal) (m ((c : Thread nD τ).loc main_arg0)) (m ((c : Thread nD τ).loc main_arg4))
            (normalized (diffused (m ((c : Thread nD τ).loc main_arg1)) (m ((c : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v48 (Pipeline.mem_restRefs_of main_v48 (by decide) (by decide))).trans (result_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.LossRun

end
-- ==== Proof.RowNormalize.lean ====
/-
  Row normalization on the extended reals.

  A row `d` of reals is normalized by dividing every entry by the row's sum. One program does this
  ten times, multiplies the result by a matrix `z` and L2-normalizes the product row; another
  multiplies first, scales the product row by the reciprocal of the row sum once, and L2-normalizes.
  Here "division" is the total division of the extended reals in which `x / 0` is `⊤` for `x > 0`
  and `⊥` otherwise, and `x / ±∞ = 0`.

  * If the row sum `s` is not `0`, one normalization gives the real row `d j / s`, whose sum is `1`,
    so every further normalization leaves it fixed; the two product rows are then the same reals.
  * If `s = 0`, some entry is `≤ 0`, so the first normalization produces a `⊥` entry, the row then
    sums to `⊥`, and the second normalization gives the zero row. From the zero row the iterates
    alternate between the all-`⊥` row and the zero row, so after an even number of steps (ten) the row
    is zero and so is its product with `z`. The other program's product row is `P c * ⊤` with
    `P c = ∑ j, d j * z j c`: either every `P c` is `0` and the row is zero as well, or some entry
    is infinite, the sum of squares is `⊤`, and dividing by `⊤` sends every entry to `0`.
  In both cases the L2-normalized rows are equal (`l2_refRow_eq_l2_kerRow`).
-/
import Idealize.ShloMosaic.PureOps.Ideal.Laws

noncomputable section

namespace RowNormalize

open Idealize.ShloMosaic

variable {J C : Type} [Fintype J] [Fintype C]

/-- one normalization step of a row: every entry divided by the row's sum (the host's sum starts from 0) -/
def step (r : J → EReal) : J → EReal := fun j => Ideal.div (r j) (0 + ∑ k, r k)

/-- the reference's product row: the row normalized ten times, times z -/
def refRow (d : J → EReal) (z : J → C → EReal) : C → EReal := fun c => ∑ j, (step^[10] d) j * z j c

/-- the kernel's product row: the raw product scaled by the reciprocal of the row sum -/
def kerRow (d : J → EReal) (z : J → C → EReal) : C → EReal := fun c => (∑ j, d j * z j c) * Ideal.div 1 (∑ j, d j)

/-- L2 normalization of a row with the clamp ε -/
def l2 (ε : EReal) (x : C → EReal) : C → EReal := fun c => Ideal.div (x c) (max (Ideal.sqrt (0 + ∑ c', x c' * x c')) ε)

/-! ### Sums and squares of extended reals -/

/-- The inclusion of the reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum with a `⊥` term is `⊥`, since `⊥ + x = ⊥` for every `x`. -/
theorem sum_eq_bot_of_mem (r : J → EReal) (j₀ : J) (h : r j₀ = ⊥) : ∑ j, r j = ⊥ := by
  classical
  rw [← Finset.add_sum_erase Finset.univ r (Finset.mem_univ j₀), h, EReal.bot_add]

/-- A finite sum of nonnegative terms one of which is `⊤` is `⊤`. -/
theorem sum_eq_top_of_mem (r : C → EReal) (hr : ∀ c, 0 ≤ r c) (c₀ : C) (h : r c₀ = ⊤) : ∑ c, r c = ⊤ := by
  apply top_le_iff.mp
  rw [← h]
  exact Finset.single_le_sum (fun c _ => hr c) (Finset.mem_univ c₀)

/-- A square is nonnegative, at the infinities too: `⊥ * ⊥ = ⊤ * ⊤ = ⊤`. -/
theorem mul_self_nonneg' (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

/-! ### The division at its corners -/

/-- `x / 0 = ⊥` unless `x` is positive. -/
theorem div_zero_of_not_pos {x : EReal} (hx : ¬ 0 < x) : Ideal.div x 0 = ⊥ := by
  rw [Ideal.div, if_pos rfl, if_neg hx]

/-- `x / ⊥ = 0`: the inverse of an infinity is `0`. -/
theorem div_bot (x : EReal) : Ideal.div x ⊥ = 0 := by
  rw [Ideal.div, if_neg EReal.bot_ne_zero, EReal.inv_bot, mul_zero]

/-- `x / ⊤ = 0`. -/
theorem div_top (x : EReal) : Ideal.div x ⊤ = 0 := by
  rw [Ideal.div, if_neg EReal.top_ne_zero, EReal.inv_top, mul_zero]

/-! ### One normalization step on the rows that occur -/

/-- A real row whose sum `s` is not `0` normalizes to the real row `d j / s`. -/
theorem step_coe (d : J → ℝ) (s : ℝ) (hsum : ∑ k, d k = s) (hs : s ≠ 0) :
    step (fun j => (d j : EReal)) = fun j => ((d j / s : ℝ) : EReal) := by
  funext j
  show Ideal.div (d j : EReal) (0 + ∑ k, (d k : EReal)) = ((d j / s : ℝ) : EReal)
  rw [zero_add, ← coe_sum, hsum, Ideal.div_coe hs, ← EReal.coe_mul, mul_one_div]

/-- A row whose sum is `⊥` normalizes to the zero row. -/
theorem step_of_sum_eq_bot (r : J → EReal) (h : ∑ k, r k = ⊥) : step r = fun _ => 0 := by
  funext j
  show Ideal.div (r j) (0 + ∑ k, r k) = 0
  rw [h, zero_add, div_bot]

/-- The zero row normalizes to the all-`⊥` row: `0 / 0 = ⊥`. -/
theorem step_zero : step (fun _ : J => (0 : EReal)) = fun _ => ⊥ := by
  funext j
  show Ideal.div 0 (0 + ∑ _k : J, (0 : EReal)) = ⊥
  rw [Finset.sum_const_zero, zero_add]
  exact div_zero_of_not_pos (lt_irrefl 0)

/-- The all-`⊥` row (on a nonempty index set) sums to `⊥`, so it normalizes to the zero row. -/
theorem step_bot [Nonempty J] : step (fun _ : J => (⊥ : EReal)) = fun _ => 0 :=
  step_of_sum_eq_bot _ (sum_eq_bot_of_mem _ (Classical.arbitrary J) rfl)

/-- Two steps take the zero row back to itself. -/
theorem step_step_zero [Nonempty J] : step (step (fun _ : J => (0 : EReal))) = fun _ => 0 := by
  rw [step_zero, step_bot]

/-- A real row that sums to `0` has an entry `≤ 0`; dividing it by `0` gives `⊥`, so the normalized row
    sums to `⊥` and a second normalization gives the zero row. -/
theorem step_step_of_sum_eq_zero [Nonempty J] (d : J → ℝ) (hs : ∑ k, d k = 0) :
    step (step (fun j => (d j : EReal))) = fun _ => 0 := by
  obtain ⟨j₀, -, hj₀⟩ := Finset.exists_le_of_sum_le (s := Finset.univ) (f := d) (g := fun _ => 0)
    Finset.univ_nonempty (by rw [hs, Finset.sum_const_zero])
  apply step_of_sum_eq_bot
  apply sum_eq_bot_of_mem _ j₀
  show Ideal.div (d j₀ : EReal) (0 + ∑ k, (d k : EReal)) = ⊥
  rw [← coe_sum, hs, EReal.coe_zero, zero_add]
  exact div_zero_of_not_pos (not_lt.mpr (EReal.coe_nonpos.mpr hj₀))

/-! ### Ten steps -/

/-- Row sum not `0`: the first step gives `d j / s`, which sums to `1` and is fixed by every further step. -/
theorem iterate_ten_of_sum_ne_zero (d : J → ℝ) (s : ℝ) (hsum : ∑ k, d k = s) (hs : s ≠ 0) :
    step^[10] (fun j => (d j : EReal)) = fun j => ((d j / s : ℝ) : EReal) := by
  have hone : ∑ j, d j / s = 1 := by rw [← Finset.sum_div, hsum, div_self hs]
  have hfix : step (fun j => ((d j / s : ℝ) : EReal)) = fun j => ((d j / s : ℝ) : EReal) := by
    rw [step_coe (fun j => d j / s) 1 hone one_ne_zero]
    funext j
    rw [div_one]
  show step^[9] (step (fun j => (d j : EReal))) = _
  rw [step_coe d s hsum hs, Function.iterate_fixed hfix]

/-- Row sum `0`: two steps reach the zero row, and every further pair of steps returns to it. -/
theorem iterate_ten_of_sum_eq_zero [Nonempty J] (d : J → ℝ) (hs : ∑ k, d k = 0) :
    step^[10] (fun j => (d j : EReal)) = fun _ => 0 := by
  show step (step (step (step (step (step (step (step (step (step (fun j => (d j : EReal))))))))))) = _
  rw [step_step_of_sum_eq_zero d hs, step_step_zero, step_step_zero, step_step_zero, step_step_zero]

/-! ### The L2 normalization of the two special rows -/

/-- The zero row L2-normalizes to the zero row: the divisor is at least `ε > 0`, so it is not `0`. -/
theorem l2_zero (ε : EReal) (hε : 0 < ε) : l2 ε (fun _ : C => (0 : EReal)) = fun _ => 0 := by
  funext c
  show Ideal.div 0 (max (Ideal.sqrt (0 + ∑ _c' : C, (0 : EReal) * 0)) ε) = 0
  rw [Ideal.div, if_neg (lt_of_lt_of_le hε (le_max_right _ _)).ne', zero_mul]

/-- A row whose squares sum to `⊤` L2-normalizes to the zero row: `√⊤ = ⊤`, `max ⊤ ε = ⊤`, `x / ⊤ = 0`. -/
theorem l2_eq_zero_of_sum_sq_eq_top (ε : EReal) (x : C → EReal) (h : ∑ c, x c * x c = ⊤) :
    l2 ε x = fun _ => 0 := by
  funext c
  show Ideal.div (x c) (max (Ideal.sqrt (0 + ∑ c', x c' * x c')) ε) = 0
  rw [h, zero_add, Ideal.sqrt_top, max_eq_left le_top, div_top]

/-! ### The two product rows -/

/-- Row sum `s ≠ 0`: both product rows are the real row `(∑ j, d j * z j c) / s`. -/
theorem refRow_eq_kerRow_of_sum_ne_zero (d : J → ℝ) (z : J → C → ℝ) (hs : ∑ k, d k ≠ 0) :
    refRow (fun j => ((d j : ℝ) : EReal)) (fun j c => ((z j c : ℝ) : EReal))
      = kerRow (fun j => ((d j : ℝ) : EReal)) (fun j c => ((z j c : ℝ) : EReal)) := by
  funext c
  show ∑ j, (step^[10] (fun j => (d j : EReal))) j * (z j c : EReal)
    = (∑ j, (d j : EReal) * (z j c : EReal)) * Ideal.div 1 (∑ j, (d j : EReal))
  rw [iterate_ten_of_sum_ne_zero d (∑ k, d k) rfl hs]
  simp only [← EReal.coe_mul]
  rw [← coe_sum, ← coe_sum, ← coe_sum, Ideal.div_coe hs, one_mul, ← EReal.coe_mul, Finset.sum_mul]
  congr 1
  exact Finset.sum_congr rfl fun j _ => by ring

/-- Row sum `0`: the reciprocal of the row sum is `1 / 0 = ⊤`, so the scaled product row is `P c * ⊤`. -/
theorem kerRow_of_sum_eq_zero (d : J → ℝ) (z : J → C → ℝ) (hs : ∑ k, d k = 0) (c : C) :
    kerRow (fun j => ((d j : ℝ) : EReal)) (fun j c => ((z j c : ℝ) : EReal)) c
      = ((∑ j, d j * z j c : ℝ) : EReal) * ⊤ := by
  show (∑ j, (d j : EReal) * (z j c : EReal)) * Ideal.div 1 (∑ j, (d j : EReal)) = _
  simp only [← EReal.coe_mul]
  rw [← coe_sum, ← coe_sum, hs, EReal.coe_zero, Ideal.div, if_pos rfl, if_pos zero_lt_one]

/-- Row sum `0`: the ten-times-normalized row is zero, so its product with `z` is the zero row. -/
theorem refRow_of_sum_eq_zero [Nonempty J] (d : J → ℝ) (z : J → C → ℝ) (hs : ∑ k, d k = 0) :
    refRow (fun j => ((d j : ℝ) : EReal)) (fun j c => ((z j c : ℝ) : EReal)) = fun _ => 0 := by
  funext c
  show ∑ j, (step^[10] (fun j => (d j : EReal))) j * (z j c : EReal) = 0
  rw [iterate_ten_of_sum_eq_zero d hs]
  exact Finset.sum_eq_zero fun j _ => zero_mul _

/-! ### The theorem -/

/-- The L2-normalized product rows of the two programs are equal, whatever the real row `d` and matrix `z`. -/
theorem l2_refRow_eq_l2_kerRow [Nonempty J] (ε : EReal) (hε : 0 < ε) (d : J → ℝ) (z : J → C → ℝ) :
    l2 ε (refRow (fun j => ((d j : ℝ) : EReal)) (fun j c => ((z j c : ℝ) : EReal)))
      = l2 ε (kerRow (fun j => ((d j : ℝ) : EReal)) (fun j c => ((z j c : ℝ) : EReal))) := by
  by_cases hs : ∑ k, d k = 0
  · rw [refRow_of_sum_eq_zero d z hs, l2_zero ε hε]
    by_cases hP : ∀ c, ∑ j, d j * z j c = 0
    · -- every product is 0: the scaled row is `0 * ⊤ = 0` too
      have hker : kerRow (fun j => ((d j : ℝ) : EReal)) (fun j c => ((z j c : ℝ) : EReal)) = fun _ => 0 := by
        funext c
        rw [kerRow_of_sum_eq_zero d z hs c, hP c, EReal.coe_zero, zero_mul]
      rw [hker, l2_zero ε hε]
    · -- some product is not 0: that entry is infinite, its square is `⊤`, and so is the sum of squares
      obtain ⟨c₀, hc₀⟩ := not_forall.mp hP
      symm
      apply l2_eq_zero_of_sum_sq_eq_top
      apply sum_eq_top_of_mem _ (fun c => mul_self_nonneg' _) c₀
      rw [kerRow_of_sum_eq_zero d z hs c₀]
      rcases lt_or_gt_of_ne hc₀ with h | h
      · rw [EReal.coe_mul_top_of_neg h, EReal.bot_mul_bot]
      · rw [EReal.coe_mul_top_of_pos h, EReal.top_mul_top]
  · rw [refRow_eq_kerRow_of_sum_ne_zero d z hs]

end RowNormalize

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«170916_j27504970563864_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostForms.lean ====
/-
  Host layout operations and reductions read at an entry, for any extents.

  * broadcast_in_dim: a scalar over any shape; a vector [D] to [1, 1, D] and [1, 1, D] over [B, N, D]; an array
    [B, N] to a column stack [B, N, 1] and that over [B, N, D]; a matrix [K, D] to [1, K, D] and that over
    [B, K, D]; a vector [B] to a column [B, 1] and that over [B, M].
  * On the extended reals, a host sum over the last axis or over the middle axis of a rank-3 array, and over the
    last axis of a matrix: the initial value plus the sum over that axis.  A host reduction with a commutative and
    associative body over the last axis of a rank-3 array: the fold of the body from the initial value.
  * An [a, b, c] array reshaped to [a, b·c] read at (r, i·c + d) is the operand at (r, i, d).
-/
import Idealize.ShloMosaic.Lib.ValueIdx
import Idealize.ShloMosaic.Lib.Pipeline.Value
import Idealize.ShloMosaic.PureOps.Ideal.Laws

noncomputable section

open scoped BigOperators

namespace Cert.Lib.HostForms

open Idealize.ShloMosaic Idealize.ShloMosaic.ValueIdx

variable {α : Type}

/-! ## broadcast_in_dim -/

/-- A rank-0 array broadcast over any shape reads its one entry everywhere. -/
theorem bcast_scalar {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- [D] to [1, 1, D] along the last axis. -/
theorem bcast_d_11d {D : Nat} (dims : Fin 1 → Fin 3) (hd : dims 0 = 2)
    (h : (⟨1, ![D]⟩ : Shape).BroadcastsInDim ⟨3, ![1, 1, D]⟩ dims) (v : (⟨1, ![D]⟩ : Shape).Idx → α)
    (u1 u2 : Fin 1) (j : Fin D) : broadcastInDim ⟨3, ![1, 1, D]⟩ dims h v (ix3 u1 u2 j) = v (ix1 j) := by
  refine broadcastInDim_apply dims h v (ix3 u1 u2 j) (ix1 j) fun a => ?_
  match a with
  | ⟨0, _⟩ =>
    show j.val = if D = 1 then 0 else (ix3 u1 u2 j (dims 0)).val
    rw [hd]
    split
    · have := j.isLt; omega
    · rfl

/-- [1, 1, D] over [B, N, D]. -/
theorem bcast_11d_bnd {B N D : Nat} (dims : Fin 3 → Fin 3) (h0 : dims 0 = 0) (h1 : dims 1 = 1) (h2 : dims 2 = 2)
    (h : (⟨3, ![1, 1, D]⟩ : Shape).BroadcastsInDim ⟨3, ![B, N, D]⟩ dims) (v : (⟨3, ![1, 1, D]⟩ : Shape).Idx → α)
    (b : Fin B) (n : Fin N) (j : Fin D) :
    broadcastInDim ⟨3, ![B, N, D]⟩ dims h v (ix3 b n j) = v (ix3 (0 : Fin 1) (0 : Fin 1) j) := by
  refine broadcastInDim_apply dims h v (ix3 b n j) (ix3 (0 : Fin 1) (0 : Fin 1) j) fun a => ?_
  match a with
  | ⟨0, _⟩ => rfl
  | ⟨1, _⟩ => rfl
  | ⟨2, _⟩ =>
    show j.val = if D = 1 then 0 else (ix3 b n j (dims 2)).val
    rw [h2]
    split
    · have := j.isLt; omega
    · rfl

/-- [B, N] to the column stack [B, N, 1]. -/
theorem bcast_bn_bn1 {B N : Nat} (dims : Fin 2 → Fin 3) (h0 : dims 0 = 0) (h1 : dims 1 = 1)
    (h : (⟨2, ![B, N]⟩ : Shape).BroadcastsInDim ⟨3, ![B, N, 1]⟩ dims) (v : (⟨2, ![B, N]⟩ : Shape).Idx → α)
    (b : Fin B) (n : Fin N) (z : Fin 1) : broadcastInDim ⟨3, ![B, N, 1]⟩ dims h v (ix3 b n z) = v (ix2 b n) := by
  refine broadcastInDim_apply dims h v (ix3 b n z) (ix2 b n) fun a => ?_
  match a with
  | ⟨0, _⟩ =>
    show b.val = if B = 1 then 0 else (ix3 b n z (dims 0)).val
    rw [h0]
    split
    · have := b.isLt; omega
    · rfl
  | ⟨1, _⟩ =>
    show n.val = if N = 1 then 0 else (ix3 b n z (dims 1)).val
    rw [h1]
    split
    · have := n.isLt; omega
    · rfl

/-- The column stack [B, N, 1] over [B, N, D]. -/
theorem bcast_bn1_bnd {B N D : Nat} (dims : Fin 3 → Fin 3) (h0 : dims 0 = 0) (h1 : dims 1 = 1) (h2 : dims 2 = 2)
    (h : (⟨3, ![B, N, 1]⟩ : Shape).BroadcastsInDim ⟨3, ![B, N, D]⟩ dims) (v : (⟨3, ![B, N, 1]⟩ : Shape).Idx → α)
    (b : Fin B) (n : Fin N) (j : Fin D) :
    broadcastInDim ⟨3, ![B, N, D]⟩ dims h v (ix3 b n j) = v (ix3 b n (0 : Fin 1)) := by
  refine broadcastInDim_apply dims h v (ix3 b n j) (ix3 b n (0 : Fin 1)) fun a => ?_
  match a with
  | ⟨0, _⟩ =>
    show b.val = if B = 1 then 0 else (ix3 b n j (dims 0)).val
    rw [h0]
    split
    · have := b.isLt; omega
    · rfl
  | ⟨1, _⟩ =>
    show n.val = if N = 1 then 0 else (ix3 b n j (dims 1)).val
    rw [h1]
    split
    · have := n.isLt; omega
    · rfl
  | ⟨2, _⟩ => rfl

/-- [K, D] to [1, K, D]. -/
theorem bcast_kd_1kd {K D : Nat} (dims : Fin 2 → Fin 3) (h0 : dims 0 = 1) (h1 : dims 1 = 2)
    (h : (⟨2, ![K, D]⟩ : Shape).BroadcastsInDim ⟨3, ![1, K, D]⟩ dims) (v : (⟨2, ![K, D]⟩ : Shape).Idx → α)
    (u : Fin 1) (k : Fin K) (j : Fin D) : broadcastInDim ⟨3, ![1, K, D]⟩ dims h v (ix3 u k j) = v (ix2 k j) := by
  refine broadcastInDim_apply dims h v (ix3 u k j) (ix2 k j) fun a => ?_
  match a with
  | ⟨0, _⟩ =>
    show k.val = if K = 1 then 0 else (ix3 u k j (dims 0)).val
    rw [h0]
    split
    · have := k.isLt; omega
    · rfl
  | ⟨1, _⟩ =>
    show j.val = if D = 1 then 0 else (ix3 u k j (dims 1)).val
    rw [h1]
    split
    · have := j.isLt; omega
    · rfl

/-- [1, K, D] over [B, K, D]. -/
theorem bcast_1kd_bkd {B K D : Nat} (dims : Fin 3 → Fin 3) (h0 : dims 0 = 0) (h1 : dims 1 = 1) (h2 : dims 2 = 2)
    (h : (⟨3, ![1, K, D]⟩ : Shape).BroadcastsInDim ⟨3, ![B, K, D]⟩ dims) (v : (⟨3, ![1, K, D]⟩ : Shape).Idx → α)
    (b : Fin B) (k : Fin K) (j : Fin D) :
    broadcastInDim ⟨3, ![B, K, D]⟩ dims h v (ix3 b k j) = v (ix3 (0 : Fin 1) k j) := by
  refine broadcastInDim_apply dims h v (ix3 b k j) (ix3 (0 : Fin 1) k j) fun a => ?_
  match a with
  | ⟨0, _⟩ => rfl
  | ⟨1, _⟩ =>
    show k.val = if K = 1 then 0 else (ix3 b k j (dims 1)).val
    rw [h1]
    split
    · have := k.isLt; omega
    · rfl
  | ⟨2, _⟩ =>
    show j.val = if D = 1 then 0 else (ix3 b k j (dims 2)).val
    rw [h2]
    split
    · have := j.isLt; omega
    · rfl

/-- [B] to the column [B, 1]. -/
theorem bcast_b_b1 {B : Nat} (dims : Fin 1 → Fin 2) (h0 : dims 0 = 0)
    (h : (⟨1, ![B]⟩ : Shape).BroadcastsInDim ⟨2, ![B, 1]⟩ dims) (v : (⟨1, ![B]⟩ : Shape).Idx → α)
    (b : Fin B) (z : Fin 1) : broadcastInDim ⟨2, ![B, 1]⟩ dims h v (ix2 b z) = v (ix1 b) := by
  refine broadcastInDim_apply dims h v (ix2 b z) (ix1 b) fun a => ?_
  match a with
  | ⟨0, _⟩ =>
    show b.val = if B = 1 then 0 else (ix2 b z (dims 0)).val
    rw [h0]
    split
    · have := b.isLt; omega
    · rfl

/-- The column [B, 1] over [B, M]. -/
theorem bcast_b1_bm {B M : Nat} (dims : Fin 2 → Fin 2) (h0 : dims 0 = 0) (h1 : dims 1 = 1)
    (h : (⟨2, ![B, 1]⟩ : Shape).BroadcastsInDim ⟨2, ![B, M]⟩ dims) (v : (⟨2, ![B, 1]⟩ : Shape).Idx → α)
    (b : Fin B) (n : Fin M) : broadcastInDim ⟨2, ![B, M]⟩ dims h v (ix2 b n) = v (ix2 b (0 : Fin 1)) := by
  refine broadcastInDim_apply dims h v (ix2 b n) (ix2 b (0 : Fin 1)) fun a => ?_
  match a with
  | ⟨0, _⟩ =>
    show b.val = if B = 1 then 0 else (ix2 b n (dims 0)).val
    rw [h0]
    split
    · have := b.isLt; omega
    · rfl
  | ⟨1, _⟩ => rfl

/-! ## Host reductions on the extended reals -/

/-- A host sum over the last axis of a rank-3 array, at (b, n). -/
theorem hostSum_last3 {B N D : Nat} (x : FVec Ideal ⟨3, ![B, N, D]⟩ .f32) (init : (⟨0, ![]⟩ : Shape).Idx → Ideal .f32)
    (h' : (⟨3, ![B, N, D]⟩ : Shape).ReducesTo [2] ⟨2, ![B, N]⟩) (h : (⟨3, ![B, N, D]⟩ : Shape).Reduces [2] ⟨2, ![B, N]⟩)
    (hu : 0 < (⟨0, ![]⟩ : Shape).numel) (b : Fin B) (n : Fin N) :
    Host.reduceAdd x init h' hu (ix2 b n) = init (Shape.Idx.first hu) + ∑ j : Fin D, x (ix3 b n j) := by
  show Ideal.hostReduceAdd h' x (init (Shape.Idx.first hu)) (ix2 b n) = _
  rw [Ideal.hostReduceAdd_single h' h]
  refine congrArg _ (Finset.sum_congr rfl fun j _ => congrArg x (funext fun c => Fin.ext ?_))
  match c with
  | ⟨0, _⟩ => rfl
  | ⟨1, _⟩ => rfl
  | ⟨2, _⟩ => rfl

/-- A host sum over the middle axis of a rank-3 array, at (b, k). -/
theorem hostSum_mid3 {B N K : Nat} (x : FVec Ideal ⟨3, ![B, N, K]⟩ .f32) (init : (⟨0, ![]⟩ : Shape).Idx → Ideal .f32)
    (h' : (⟨3, ![B, N, K]⟩ : Shape).ReducesTo [1] ⟨2, ![B, K]⟩) (h : (⟨3, ![B, N, K]⟩ : Shape).Reduces [1] ⟨2, ![B, K]⟩)
    (hu : 0 < (⟨0, ![]⟩ : Shape).numel) (b : Fin B) (k : Fin K) :
    Host.reduceAdd x init h' hu (ix2 b k) = init (Shape.Idx.first hu) + ∑ n : Fin N, x (ix3 b n k) := by
  show Ideal.hostReduceAdd h' x (init (Shape.Idx.first hu)) (ix2 b k) = _
  rw [Ideal.hostReduceAdd_single h' h]
  refine congrArg _ (Finset.sum_congr rfl fun n _ => congrArg x (funext fun c => Fin.ext ?_))
  match c with
  | ⟨0, _⟩ => rfl
  | ⟨1, _⟩ => rfl
  | ⟨2, _⟩ => rfl

/-- A host sum over the last axis of a matrix, at b. -/
theorem hostSum_last2 {B M : Nat} (x : FVec Ideal ⟨2, ![B, M]⟩ .f32) (init : (⟨0, ![]⟩ : Shape).Idx → Ideal .f32)
    (h' : (⟨2, ![B, M]⟩ : Shape).ReducesTo [1] ⟨1, ![B]⟩) (h : (⟨2, ![B, M]⟩ : Shape).Reduces [1] ⟨1, ![B]⟩)
    (hu : 0 < (⟨0, ![]⟩ : Shape).numel) (b : Fin B) :
    Host.reduceAdd x init h' hu (ix1 b) = init (Shape.Idx.first hu) + ∑ n : Fin M, x (ix2 b n) := by
  show Ideal.hostReduceAdd h' x (init (Shape.Idx.first hu)) (ix1 b) = _
  rw [Ideal.hostReduceAdd_single h' h]
  refine congrArg _ (Finset.sum_congr rfl fun n _ => congrArg x (funext fun c => Fin.ext ?_))
  match c with
  | ⟨0, _⟩ => rfl
  | ⟨1, _⟩ => rfl

/-- A host reduction with a commutative and associative body over the last axis of a rank-3 array, at (b, n): the
    fold of the body over the entries (b, n, d), from the initial value. -/
theorem hostFold_last3 {B N D : Nat} (f : α → α → α) [Std.Commutative f] [Std.Associative f]
    (x : (⟨3, ![B, N, D]⟩ : Shape).Idx → α) (init : (⟨0, ![]⟩ : Shape).Idx → α)
    (h' : (⟨3, ![B, N, D]⟩ : Shape).ReducesTo [2] ⟨2, ![B, N]⟩) (h : (⟨3, ![B, N, D]⟩ : Shape).Reduces [2] ⟨2, ![B, N]⟩)
    (hu : 0 < (⟨0, ![]⟩ : Shape).numel) (b : Fin B) (n : Fin N) :
    Host.reduce f x init h' hu (ix2 b n)
      = (Finset.univ : Finset (Fin D)).fold f (init (Shape.Idx.first hu)) (fun d => x (ix3 b n d)) := by
  rw [Host.reduce_eq_fold_single f x init h' h hu (ix2 b n)]
  refine Finset.fold_congr fun d _ => ?_
  show x (h.lift (ix2 b n) d) = x (ix3 b n d)
  refine congrArg x (funext fun c => Fin.ext ?_)
  match c with
  | ⟨0, _⟩ => rfl
  | ⟨1, _⟩ => rfl
  | ⟨2, _⟩ => rfl

/-! ## The two trailing axes flattened -/

/-- An [a, b, c] array reshaped to [a, n], n = b·c, at (r, i·c + d) is the operand at (r, i, d). -/
theorem flatten_apply {a b c n : Nat} (x : (⟨3, ![a, b, c]⟩ : Shape).Idx → α)
    (h : (⟨3, ![a, b, c]⟩ : Shape).ShapeCasts ⟨2, ![a, n]⟩) (hn : n = b * c) (r : Fin a) (k : Fin n) (i : Fin b)
    (d : Fin c) (hk : k.val = i.val * c + d.val) :
    shapeCast ⟨2, ![a, n]⟩ x h (ix2 r k) = x (ix3 r i d) :=
  shapeCast_apply x h _ _ (by
    rw [Shape.rowMajor_val_three, Shape.rowMajor_val_two]
    show (r.val * b + i.val) * c + d.val = r.val * n + k.val
    rw [hk, hn]; ring)

end Cert.Lib.HostForms

end
-- ==== Proof.RefArray.lean ====
/-
  The reference's diffused features, read at an entry.

  The reference normalizes every row of an 8192 × 8192 matrix ten times — each time dividing the matrix, entry by
  entry, by the column of its row sums repeated along the rows — and multiplies the result by an 8192 × 256 matrix.
  Read along a row, one such normalization is one row-level normalization step of that row; so row a of the product is
  the row a of the first matrix normalized ten times, times the second matrix.
-/
import proofs.«170916_j27504970563864_2_alg».proof.Proof.Gen.ReferenceIdeal.Run
import proofs.«170916_j27504970563864_2_alg».proof.Proof.RowNormalize
import proofs.«170916_j27504970563864_2_alg».proof.Proof.LibDotGeneralNN
import proofs.«170916_j27504970563864_2_alg».proof.Proof.LibHostForms
import proofs.«170916_j27504970563864_2_alg».proof.Proof.LibRowScalar

noncomputable section

open scoped BigOperators

namespace Cert.ReferenceIdeal.Diffused

open Cert.ReferenceIdeal Cert.ReferenceIdeal.Gen Cert.ReferenceIdeal.Value Idealize.ShloMosaic Idealize.ShloMosaic.ValueIdx

/-- one normalization of every row of the matrix, as the host prints it -/
def normalize (x : FVec Ideal S8192x8192 .f32) : FVec Ideal S8192x8192 .f32 :=
  Host.divf x (broadcastInDim S8192x8192 ![0, 1] bcast_S8192x1_S8192x8192_0_1 (broadcastInDim S8192x1 ![0] bcast_S8192_S8192x1_0 (Host.reduceAdd x (constant (F := Ideal) S_ .f32 0x00000000#32) reducesTo_S8192x8192_S8192_d1 h_S_)))

/-- The host's quotient of two arrays, read at an index: the extended reals' division of the entries. -/
theorem hostDivf_apply {s : Shape} {φ : FTy} (u w : FVec Ideal s φ) (i : s.Idx) :
    Host.divf u w i = Ideal.div (u i) (w i) := rfl

/-- Row a of the normalized matrix is the normalization step of row a: the entry (a, j) is divided by the column of row
    sums at (a, j), which is the row sum of row a, zero plus the sum of its entries. -/
theorem normalize_row (x : FVec Ideal S8192x8192 .f32) (a : Fin 8192) :
    (fun j : Fin 8192 => normalize x (ix2 a j)) = RowNormalize.step (fun k : Fin 8192 => x (ix2 a k)) := by
  funext j
  unfold normalize RowNormalize.step
  rw [hostDivf_apply,
    Cert.LibRowScalar.col_apply _ bcast_S8192_S8192x1_0 bcast_S8192x1_S8192x8192_0_1 a j,
    Cert.Lib.HostForms.hostSum_last2 x _ reducesTo_S8192x8192_S8192_d1 (by decide) h_S_ a,
    constant_apply, Ideal.ofBits_zero_f32]

/-- If `x` is the normalization of `y` and row a of `y` is `r`, then row a of `x` is the normalization step of `r`. -/
theorem row_of_normalize (x y : FVec Ideal S8192x8192 .f32) (r : Fin 8192 → EReal) (a : Fin 8192)
    (hx : x = normalize y) (hy : (fun j : Fin 8192 => y (ix2 a j)) = r) :
    (fun j : Fin 8192 => x (ix2 a j)) = RowNormalize.step r := by
  rw [hx, normalize_row, hy]

/-- The product of the ten-times-normalized matrix with the second argument, read at (a, b): the sum over j of row a of
    the first argument normalized ten times, at j, times the second argument at (j, b). -/
theorem res_main_v40_apply (V0 : Valuation τ sig (Elt Ideal)) (a : Fin 8192) (b : Fin 256) :
    res_main_v40 (F := Ideal) V0 (ix2 a b)
      = RowNormalize.refRow (fun j : Fin 8192 => (V0 (Proc.devRef .tc main_arg1) : S8192x8192.Idx → EReal) (ix2 a j))
          (fun (j : Fin 8192) (c : Fin 256) => (V0 (Proc.devRef .tc main_arg0) : S8192x256.Idx → EReal) (ix2 j c)) b := by
  -- each named array of the reference is the normalization of the previous one
  have h3 : res_main_v3 (F := Ideal) V0 = normalize (V0 (Proc.devRef .tc main_arg1)) := rfl
  have h7 : res_main_v7 (F := Ideal) V0 = normalize (res_main_v3 V0) := rfl
  have h11 : res_main_v11 (F := Ideal) V0 = normalize (res_main_v7 V0) := rfl
  have h15 : res_main_v15 (F := Ideal) V0 = normalize (res_main_v11 V0) := rfl
  have h19 : res_main_v19 (F := Ideal) V0 = normalize (res_main_v15 V0) := rfl
  have h23 : res_main_v23 (F := Ideal) V0 = normalize (res_main_v19 V0) := rfl
  have h27 : res_main_v27 (F := Ideal) V0 = normalize (res_main_v23 V0) := rfl
  have h31 : res_main_v31 (F := Ideal) V0 = normalize (res_main_v27 V0) := rfl
  have h35 : res_main_v35 (F := Ideal) V0 = normalize (res_main_v31 V0) := rfl
  have h40 : res_main_v40 (F := Ideal) V0
      = FloatOps.dotGeneral dot_S8192x8192_S8192x256_S8192x256_1_0_0_1_n_n none .single
          (normalize (res_main_v35 V0)) (V0 (Proc.devRef .tc main_arg0)) := rfl
  -- so row a of each is one more step applied to row a of the first argument
  have r1 := row_of_normalize _ _ _ a h3 rfl
  have r2 := row_of_normalize _ _ _ a h7 r1
  have r3 := row_of_normalize _ _ _ a h11 r2
  have r4 := row_of_normalize _ _ _ a h15 r3
  have r5 := row_of_normalize _ _ _ a h19 r4
  have r6 := row_of_normalize _ _ _ a h23 r5
  have r7 := row_of_normalize _ _ _ a h27 r6
  have r8 := row_of_normalize _ _ _ a h31 r7
  have r9 := row_of_normalize _ _ _ a h35 r8
  have r10 := row_of_normalize _ _ _ a rfl r9
  -- the product at (a, b) is the sum over k of the tenth quotient at (a, k) times the second argument at (k, b)
  have key : (∑ k : Fin 8192, normalize (res_main_v35 V0) (ix2 a k)
        * (V0 (Proc.devRef .tc main_arg0) : S8192x256.Idx → EReal) (ix2 k b) : EReal)
      = RowNormalize.refRow (fun j : Fin 8192 => (V0 (Proc.devRef .tc main_arg1) : S8192x8192.Idx → EReal) (ix2 a j))
          (fun (j : Fin 8192) (c : Fin 256) => (V0 (Proc.devRef .tc main_arg0) : S8192x256.Idx → EReal) (ix2 j c)) b := by
    unfold RowNormalize.refRow
    exact Finset.sum_congr rfl fun k _ =>
      congrArg (fun t : EReal => t * (V0 (Proc.devRef .tc main_arg0) : S8192x256.Idx → EReal) (ix2 k b)) (congrFun r10 k)
  rw [h40, Cert.LibDotGeneralNN.dotGeneral_apply _ rfl rfl rfl rfl rfl rfl]
  exact key

end Cert.ReferenceIdeal.Diffused

end
-- ==== Proof.L2Rows.lean ====
/-
  The L2 normalization of the rows of a matrix, read at an entry.

  The rows of an A × B matrix x are normalized by x / max (√(∑ x·x), 1e-12): the squares are summed along each row
  (the sum starts from zero), the vector of sums is made a column, its square root is taken and clamped from below by
  the constant 1e-12, the column is repeated along the rows, and x is divided by it entry by entry. Read at the entry
  (a, b), this is the row-level normalization of row a at position b, with the clamp the extended real the 32-bit word
  of 1e-12 denotes — a positive real number.
-/
import Idealize.ShloMosaic.Lib.ValueIdx
import Idealize.ShloMosaic.Lib.Pipeline.Value
import Idealize.ShloMosaic.PureOps.Ideal.Laws
import proofs.«170916_j27504970563864_2_alg».proof.Proof.RowNormalize
import proofs.«170916_j27504970563864_2_alg».proof.Proof.LibHostForms
import proofs.«170916_j27504970563864_2_alg».proof.Proof.LibRowScalar

noncomputable section

open scoped BigOperators

namespace Cert.L2Rows

open Idealize.ShloMosaic Idealize.ShloMosaic.ValueIdx

variable {A B : Nat}

/-- the clamp of the normalization, the f32 word of 1e-12 -/
def eps : EReal := Ideal.ofBits .f32 0x2B8CBCCC#32

/-- The word 0x2B8CBCCC has sign bit 0, exponent field 87 and fraction 834764: it denotes the positive real
    (2^23 + 834764) · 2^(87 − 127 − 23). -/
theorem eps_pos : 0 < eps := by
  unfold eps
  simp [Ideal.ofBits, Ideal.ieee, -EReal.coe_mul]

/-- x / max(sqrt(rowsum(x·x)), 1e-12), rows of an A × B matrix, as the host prints it -/
def l2n (g1 : (⟨1, ![A]⟩ : Shape).BroadcastsInDim ⟨2, ![A, 1]⟩ (![0] : Fin 1 → Fin 2))
    (g2 : (⟨2, ![A, 1]⟩ : Shape).BroadcastsInDim ⟨2, ![A, B]⟩ (![0, 1] : Fin 2 → Fin 2))
    (g0 : (⟨0, ![]⟩ : Shape).BroadcastsInDim ⟨2, ![A, 1]⟩ (![] : Fin 0 → Fin 2))
    (red : (⟨2, ![A, B]⟩ : Shape).ReducesTo [1] ⟨1, ![A]⟩) (hu : 0 < (⟨0, ![]⟩ : Shape).numel)
    (x : FVec Ideal ⟨2, ![A, B]⟩ .f32) : FVec Ideal ⟨2, ![A, B]⟩ .f32 :=
  Host.divf x (broadcastInDim ⟨2, ![A, B]⟩ ![0, 1] g2 (maximumf (Host.sqrt (broadcastInDim ⟨2, ![A, 1]⟩ ![0] g1 (Host.reduceAdd (mulf x x) (constant (F := Ideal) ⟨0, ![]⟩ .f32 0x00000000#32) red hu))) (broadcastInDim ⟨2, ![A, 1]⟩ ![] g0 (constant (F := Ideal) ⟨0, ![]⟩ .f32 0x2B8CBCCC#32))))

/-- The host's quotient of two arrays, read at an index: the extended reals' division of the entries. -/
theorem hostDivf_apply {s : Shape} {φ : FTy} (u w : FVec Ideal s φ) (i : s.Idx) :
    Host.divf u w i = Ideal.div (u i) (w i) := rfl

/-- The host's square root of an array, read at an index: the extended reals' square root of the entry. -/
theorem hostSqrt_apply {s : Shape} {φ : FTy} (u : FVec Ideal s φ) (i : s.Idx) :
    Host.sqrt u i = Ideal.sqrt (u i) := rfl

/-- The normalized matrix at (a, b) is the row-level normalization of row a at b. The steps, outermost first: the
    quotient at (a, b) is the division of the entries; the repeated column at (a, b) is the column at (a, 0); the maximum
    and the square root are taken entry by entry; the column at (a, 0) is the vector of row sums at a, which is zero plus
    the sum of the squares of row a; the spread constant is the clamp everywhere. -/
theorem l2n_apply (g1 : (⟨1, ![A]⟩ : Shape).BroadcastsInDim ⟨2, ![A, 1]⟩ (![0] : Fin 1 → Fin 2))
    (g2 : (⟨2, ![A, 1]⟩ : Shape).BroadcastsInDim ⟨2, ![A, B]⟩ (![0, 1] : Fin 2 → Fin 2))
    (g0 : (⟨0, ![]⟩ : Shape).BroadcastsInDim ⟨2, ![A, 1]⟩ (![] : Fin 0 → Fin 2))
    (red : (⟨2, ![A, B]⟩ : Shape).ReducesTo [1] ⟨1, ![A]⟩) (hu : 0 < (⟨0, ![]⟩ : Shape).numel)
    (hred : (⟨2, ![A, B]⟩ : Shape).Reduces [1] ⟨1, ![A]⟩) (x : FVec Ideal ⟨2, ![A, B]⟩ .f32) (a : Fin A) (b : Fin B) :
    l2n g1 g2 g0 red hu x (ix2 a b) = RowNormalize.l2 eps (fun c : Fin B => x (ix2 a c)) b := by
  unfold l2n
  rw [hostDivf_apply,
    Cert.Lib.HostForms.bcast_b1_bm (![0, 1] : Fin 2 → Fin 2) rfl rfl g2,
    maximumf_apply, hostSqrt_apply,
    Cert.Lib.HostForms.bcast_b_b1 (![0] : Fin 1 → Fin 2) rfl g1,
    Cert.Lib.HostForms.hostSum_last2 _ _ red hred hu a,
    Cert.Lib.HostForms.bcast_scalar,
    constant_apply, constant_apply, Ideal.ofBits_zero_f32]
  rfl

end Cert.L2Rows

end
-- ==== Proof.Bridge.lean ====
/-
  The two normalized arrays are one array.

  The reference L2-normalizes the rows of (the matrix normalized ten times) × features; the kernel's side L2-normalizes
  the rows of the scaled product (matrix × features, each row times the reciprocal of the matrix row's sum).  Row by
  row these are the two sides of the row lemma: for a row of real numbers whose sum is not zero the two product rows
  are equal, and for a row whose sum is zero both normalize to the zero row.  The entries are real numbers by the
  precondition.
-/
import proofs.«170916_j27504970563864_2_alg».proof.Proof.KernelArray
import proofs.«170916_j27504970563864_2_alg».proof.Proof.Loss
import proofs.«170916_j27504970563864_2_alg».proof.Proof.RefArray
import proofs.«170916_j27504970563864_2_alg».proof.Proof.L2Rows
import proofs.«170916_j27504970563864_2_alg».proof.Proof.RowNormalize

noncomputable section

open scoped BigOperators

namespace Cert.Bridge

open Idealize.ShloMosaic Idealize.ShloMosaic.ValueIdx
open Cert.ReferenceIdeal Cert.ReferenceIdeal.Gen Cert.ReferenceIdeal.Value
open Cert.ReferenceIdeal.Loss (normalized)
open Cert.KernelIdeal.Diffused (diffused)

/-- The printed row normalization at an entry: the row's L2 normalization with the clamp 1e-12. -/
theorem normalized_apply (x : FVec Ideal S8192x256 .f32) (a : Fin 8192) (b : Fin 256) :
    normalized (F := Ideal) x (ix2 a b) = RowNormalize.l2 Cert.L2Rows.eps (fun c : Fin 256 => x (ix2 a c)) b := by
  refine Eq.trans ?_ (Cert.L2Rows.l2n_apply Facts₀.bcast_S8192_S8192x1_0 Facts₀.bcast_S8192x1_S8192x256_0_1
    Facts₀.bcast_S_S8192x1 Facts₀.reducesTo_S8192x256_S8192_d1 Facts₀.h_S_ (by decide) x a b)
  unfold Cert.ReferenceIdeal.Loss.normalized Cert.L2Rows.l2n
  rfl

/-- Row `a` of the scaled product is the row lemma's kernel side of row `a` of the matrix. -/
theorem diffused_row (D : S8192x8192.Idx → EReal) (Z : S8192x256.Idx → EReal) (a : Fin 8192) :
    (fun c : Fin 256 => diffused D Z (ix2 a c))
      = RowNormalize.kerRow (fun j : Fin 8192 => D (ix2 a j)) (fun (j : Fin 8192) (c : Fin 256) => Z (ix2 j c)) := rfl

/-- The normalized rows agree, for arguments whose entries are real numbers. -/
theorem normalized_eq (V0 : Valuation τ sig (Elt Ideal))
    (hD : ∀ i, (V0 (Proc.devRef .tc main_arg1) : S8192x8192.Idx → EReal) i
      = ((((V0 (Proc.devRef .tc main_arg1) : S8192x8192.Idx → EReal) i).toReal : ℝ) : EReal))
    (hZ : ∀ i, (V0 (Proc.devRef .tc main_arg0) : S8192x256.Idx → EReal) i
      = ((((V0 (Proc.devRef .tc main_arg0) : S8192x256.Idx → EReal) i).toReal : ℝ) : EReal)) :
    normalized (F := Ideal) (res_main_v40 (F := Ideal) V0)
      = normalized (F := Ideal) (diffused (V0 (Proc.devRef .tc main_arg1)) (V0 (Proc.devRef .tc main_arg0))) := by
  funext i
  obtain ⟨a, b, rfl⟩ : ∃ (a : Fin 8192) (b : Fin 256), i = ix2 a b := ⟨i 0, i 1, eq_ix2 i⟩
  rw [normalized_apply, normalized_apply]
  have e1 : (fun j : Fin 8192 => (V0 (Proc.devRef .tc main_arg1) : S8192x8192.Idx → EReal) (ix2 a j))
      = fun j : Fin 8192 => ((((V0 (Proc.devRef .tc main_arg1) : S8192x8192.Idx → EReal) (ix2 a j)).toReal : ℝ) : EReal) :=
    funext fun j => hD _
  have e2 : (fun (j : Fin 8192) (c : Fin 256) => (V0 (Proc.devRef .tc main_arg0) : S8192x256.Idx → EReal) (ix2 j c))
      = fun (j : Fin 8192) (c : Fin 256) => ((((V0 (Proc.devRef .tc main_arg0) : S8192x256.Idx → EReal) (ix2 j c)).toReal : ℝ) : EReal) :=
    funext fun j => funext fun c => hZ _
  have hR : (fun c : Fin 256 => res_main_v40 (F := Ideal) V0 (ix2 a c))
      = RowNormalize.refRow (fun j : Fin 8192 => ((((V0 (Proc.devRef .tc main_arg1) : S8192x8192.Idx → EReal) (ix2 a j)).toReal : ℝ) : EReal))
          (fun (j : Fin 8192) (c : Fin 256) => ((((V0 (Proc.devRef .tc main_arg0) : S8192x256.Idx → EReal) (ix2 j c)).toReal : ℝ) : EReal)) :=
    (funext fun c => Cert.ReferenceIdeal.Diffused.res_main_v40_apply V0 a c).trans (congrArg₂ RowNormalize.refRow e1 e2)
  have hK : (fun c : Fin 256 => diffused (V0 (Proc.devRef .tc main_arg1)) (V0 (Proc.devRef .tc main_arg0)) (ix2 a c))
      = RowNormalize.kerRow (fun j : Fin 8192 => ((((V0 (Proc.devRef .tc main_arg1) : S8192x8192.Idx → EReal) (ix2 a j)).toReal : ℝ) : EReal))
          (fun (j : Fin 8192) (c : Fin 256) => ((((V0 (Proc.devRef .tc main_arg0) : S8192x256.Idx → EReal) (ix2 j c)).toReal : ℝ) : EReal)) :=
    (diffused_row _ _ a).trans (congrArg₂ RowNormalize.kerRow e1 e2)
  rw [hR, hK]
  exact congrFun (RowNormalize.l2_refRow_eq_l2_kerRow Cert.L2Rows.eps Cert.L2Rows.eps_pos _ _) b

end Cert.Bridge

end
-- ==== Proof.LibFiniteAll.lean ====
/-
  "Every entry is finite", read.

  A precondition `jnp.all(jnp.abs(x) < inf)` prints as the `and`-reduction, over all axes and from the bit 1, of the
  comparisons of |x| with the word of +∞.  If the reduction is 1 every comparison is 1; on the extended reals
  max(x, −x) < +∞ excludes both infinities, so every entry is the real number it denotes.  Stated for any shape and
  any list of reduced axes.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteAll

open Idealize.ShloMosaic

/-- The word 0x7F800000 is +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : x = ((x.toReal : ℝ) : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  have h1 : x ≠ ⊤ := by
    rintro rfl
    exact absurd hlt (by simp)
  have h2 : x ≠ ⊥ := by
    rintro rfl
    exact absurd hlt (by simp)
  exact (EReal.coe_toReal h1 h2).symm

/-- The rank-zero shape has one index. -/
instance : Subsingleton (⟨0, ![]⟩ : Shape).Idx := ⟨fun a b => funext fun d => d.elim0⟩

/-- One argument's test: if "all entries have |x| < +∞" is 1, every entry is a real number. -/
theorem real_of_all {s : Shape} {axes : List (Fin s.rank)} (x : FVec Ideal s .f32)
    (hbc : (⟨0, ![]⟩ : Shape).BroadcastsInDim s (![] : Fin 0 → Fin s.rank)) (red : s.ReducesTo axes ⟨0, ![]⟩)
    (hu : 0 < (⟨0, ![]⟩ : Shape).numel)
    (h : Host.reduce IntOp.andi
          (cmpf .olt (Host.absf x) (broadcastInDim s ![] hbc (constant (F := Ideal) ⟨0, ![]⟩ .f32 0x7F800000#32)))
          (constantI ⟨0, ![]⟩ 1 1#1) red hu ValueIdx.ix0 = 1#1) (i : s.Idx) :
    x i = (((x i).toReal : ℝ) : EReal) := by
  have hi : Ideal.cmp .olt (max (x i) (-(x i)))
      (broadcastInDim s ![] hbc (constant (F := Ideal) ⟨0, ![]⟩ .f32 0x7F800000#32) i) = 1#1 :=
    Host.reduce_andi_all _ _ red hu ValueIdx.ix0 h i
  have hb : broadcastInDim s ![] hbc (constant (F := Ideal) ⟨0, ![]⟩ .f32 0x7F800000#32) i = ⊤ :=
    (broadcastInDim_apply _ hbc _ i (fun a => a.elim0) (fun a => a.elim0)).trans inf_word
  rw [hb] at hi
  exact real_of_abs_lt (x i) hi

end Cert.LibFiniteAll

end
-- ==== Proof.FiniteInputs.lean ====
/-
  The precondition, read: every entry of the features and of the diffusion matrix is a real number.

  The precondition is the conjunction of two tests "all entries have |x| < +∞", one per float argument.  If it is 1,
  both tests are 1, and each gives that every entry of its array is the real number it denotes.
-/
import proofs.«170916_j27504970563864_2_alg».proof.Pre_finite_inputs
import proofs.«170916_j27504970563864_2_alg».proof.Proof.LibFiniteAll
import Idealize.ShloMosaic.Lib.Affine

noncomputable section

namespace Cert.FiniteInputs

open Idealize.ShloMosaic Cert.Pre_finite_inputs

variable [Cert.Pre_finite_inputs.Facts]

/-- Under the precondition the two float arguments are arrays of real numbers. -/
theorem real_of_pre (z : FVec Ideal S8192x256 .f32) (d : FVec Ideal S8192x8192 .f32)
    (e : IVec S2x65536 32) (n : IVec S4096 32) (k : IVec S10 32)
    (h : Cert.Pre_finite_inputs.fn (F := Ideal) z d e n k = fun _ => 1#1) :
    (∀ i, z i = (((z i).toReal : ℝ) : EReal)) ∧ (∀ i, d i = (((d i).toReal : ℝ) : EReal)) := by
  have h0 := congrFun h ValueIdx.ix0
  dsimp only [Cert.Pre_finite_inputs.fn] at h0
  obtain ⟨hz, hd⟩ := IntOp.andi_eq_one.1 h0
  exact ⟨Cert.LibFiniteAll.real_of_all z Facts.bcast_S_S8192x256 Facts.reducesTo_S8192x256_S_d0_1 Facts.h_S_ hz,
    Cert.LibFiniteAll.real_of_all d Facts.bcast_S_S8192x8192 Facts.reducesTo_S8192x8192_S_d0_1 Facts.h_S_ hd⟩

end Cert.FiniteInputs

end
-- ==== Proof.lean ====
/-
  The kernel and its reference compute the same contrastive loss on finite inputs, on the extended reals.

  The reference normalizes every row of the diffusion matrix by its sum TEN times, multiplies by the features, and
  L2-normalizes the rows of the product; the kernel multiplies the raw matrix by the features and scales row `r` of the
  product by `1 / rowsum_r` — one normalization, moved across the product — and its host code L2-normalizes the rows.
  From the L2-normalized rows on, the two programs are the same host code (`Loss.lean`).

  For a row of real numbers with sum `s ≠ 0`, the first normalization makes the row sum exactly `1`, so the nine further
  ones change nothing, and `∑ (d/s) · z = (∑ d · z) · (1/s)`: the two product rows are equal.  For a row with `s = 0` they
  are NOT equal — the reference's normalized row alternates between `⊥` and `0` (`0/0 = ⊥`, `x/⊥ = 0`) and is `0` after ten
  steps, so its product row is `0`, while the kernel's is `(∑ d · z) · ⊤` — but both L2-normalize to the zero row: `0`
  over the clamp `1e-12 > 0` is `0`, and a row with an infinite entry has norm `⊤` and `x/⊤ = 0` (`RowNormalize.lean`).
  So the L2-normalized arrays agree (`Bridge.lean`), entries being real by the precondition (`FiniteInputs.lean`).

  The kernel's array after its region is read off the generated frame run, block by block (`KernelPayload.lean`,
  `KernelArray.lean`), and the host lines after the region as the loss of that array (`KernelLoss.lean`); the
  reference's run is the generated one, its matrix chain read row by row (`RefArray.lean`, `L2Rows.lean`).
  The three frames are the generated ones; the idealization rewrote nothing, so `preserves` is trivial.
-/
import proofs.«170916_j27504970563864_2_alg».proof.Defs
import proofs.«170916_j27504970563864_2_alg».proof.Proof.Gen.Kernel
import proofs.«170916_j27504970563864_2_alg».proof.Proof.Gen.Kernel.Skeleton
import proofs.«170916_j27504970563864_2_alg».proof.Proof.Gen.Kernel.Launch
import proofs.«170916_j27504970563864_2_alg».proof.Proof.Gen.Kernel.Points
import proofs.«170916_j27504970563864_2_alg».proof.Proof.Gen.Kernel.Frame
import proofs.«170916_j27504970563864_2_alg».proof.Proof.Gen.KernelIdeal
import proofs.«170916_j27504970563864_2_alg».proof.Proof.Gen.KernelIdeal.Skeleton
import proofs.«170916_j27504970563864_2_alg».proof.Proof.Gen.KernelIdeal.Launch
import proofs.«170916_j27504970563864_2_alg».proof.Proof.Gen.KernelIdeal.Points
import proofs.«170916_j27504970563864_2_alg».proof.Proof.Gen.KernelIdeal.Frame
import proofs.«170916_j27504970563864_2_alg».proof.Proof.Gen.ReferenceIdeal
import proofs.«170916_j27504970563864_2_alg».proof.Proof.Gen.ReferenceIdeal.Run
import proofs.«170916_j27504970563864_2_alg».proof.Proof.Gen.Pre_finite_inputs
import proofs.«170916_j27504970563864_2_alg».proof.Proof.KernelLoss
import proofs.«170916_j27504970563864_2_alg».proof.Proof.Loss
import proofs.«170916_j27504970563864_2_alg».proof.Proof.Bridge
import proofs.«170916_j27504970563864_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end at the loss of the same L2-normalized array. -/
theorem algebraic : Cert.algebraic_KernelIdeal_ReferenceIdeal := by
  intro m ρ m' ρ' hpre hagree
  refine ⟨fun c => Cert.ReferenceIdeal.Loss.loss (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (Cert.ReferenceIdeal.Loss.normalized (F := Ideal) (Cert.KernelIdeal.Diffused.diffused
        (m ((c.tc : Thread Cert.KernelIdeal.nD Cert.KernelIdeal.τ).loc Cert.KernelIdeal.main_arg1))
        (m ((c.tc : Thread Cert.KernelIdeal.nD Cert.KernelIdeal.τ).loc Cert.KernelIdeal.main_arg0)))),
    Cert.KernelIdeal.LossRun.run m ρ, ?_⟩
  refine (θ_run Cert.ReferenceIdeal.defs _ _).mono (fun _ h c => ⟨(h c).1.trans ?_, (h c).2⟩)
    (Cert.ReferenceIdeal.Loss.run m' ρ')
  obtain ⟨a0, a1, -, -, a4⟩ := hagree c
  obtain ⟨hZ, hD⟩ := Cert.FiniteInputs.real_of_pre _ _ _ _ _ (hpre c)
  have hb := Cert.Bridge.normalized_eq (launchContents m' c)
    (fun i => by
      have e : launchContents m' c (Proc.devRef .tc Cert.ReferenceIdeal.main_arg1)
          = m ((c.tc : Thread Cert.KernelIdeal.nD Cert.KernelIdeal.τ).loc Cert.KernelIdeal.main_arg1) := a1
      rw [e]; exact hD i)
    (fun i => by
      have e : launchContents m' c (Proc.devRef .tc Cert.ReferenceIdeal.main_arg0)
          = m ((c.tc : Thread Cert.KernelIdeal.nD Cert.KernelIdeal.τ).loc Cert.KernelIdeal.main_arg0) := a0
      rw [e]; exact hZ i)
  rw [hb]
  show Cert.ReferenceIdeal.Loss.loss (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg4))
      (Cert.ReferenceIdeal.Loss.normalized (F := Ideal) (Cert.KernelIdeal.Diffused.diffused
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg0)))) = _
  rw [a0, a1, a4]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
